-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4680 : Shape := ⟨2, ![16384, 4680]⟩
abbrev S_ : Shape := ⟨0, ![]⟩

class Facts : Prop where
  bcast_S_S16384x4680 : S_.BroadcastsInDim S16384x4680 (![] : Fin 0 → Fin S16384x4680.rank)
  reducesTo_S16384x4680_S_d0_1 : S16384x4680.ReducesTo [0, 1] S_
  h_S_ : 0 < S_.numel

variable [Facts]

def fn {F : FTy → Type} [FloatOps F] (main_arg0 : FVec F S16384x4680 .f32) (main_arg1 : FVec F S16384x4680 .f32) : IVec S_ 1 :=
  let main_v0 : FVec F S16384x4680 .f32 := Host.absf main_arg0
  let main_cst : FVec F S_ .f32 := constant S_ .f32 0x7F800000#32
  let main_v1 : FVec F S16384x4680 .f32 := broadcastInDim S16384x4680 ![] bcast_S_S16384x4680 main_cst
  let main_v2 : IVec S16384x4680 1 := cmpf .olt main_v0 main_v1
  let main_c : IVec S_ 1 := constantI S_ 1 1#1
  let main_v3 : IVec S_ 1 := (fun x v => Host.reduce IntOp.andi x v reducesTo_S16384x4680_S_d0_1 h_S_) main_v2 main_c
  let main_v4 : FVec F S16384x4680 .f32 := Host.absf main_arg1
  let main_cst_0 : FVec F S_ .f32 := constant S_ .f32 0x7F800000#32
  let main_v5 : FVec F S16384x4680 .f32 := broadcastInDim S16384x4680 ![] bcast_S_S16384x4680 main_cst_0
  let main_v6 : IVec S16384x4680 1 := cmpf .olt main_v4 main_v5
  let main_c_1 : IVec S_ 1 := constantI S_ 1 1#1
  let main_v7 : IVec S_ 1 := (fun x v => Host.reduce IntOp.andi x v reducesTo_S16384x4680_S_d0_1 h_S_) main_v6 main_c_1
  let main_v8 : IVec S_ 1 := andi main_v3 main_v7
  main_v8
-- ==== Kernel.lean ====
abbrev S16384x4680 : Shape := ⟨2, ![16384, 4680]⟩
abbrev S256x4680 : Shape := ⟨2, ![256, 4680]⟩
abbrev S256x8 : Shape := ⟨2, ![256, 8]⟩
abbrev S256x64 : Shape := ⟨2, ![256, 64]⟩
abbrev S256x8x1 : Shape := ⟨3, ![256, 8, 1]⟩
abbrev S256x1x8 : Shape := ⟨3, ![256, 1, 8]⟩
abbrev S256x8x8 : Shape := ⟨3, ![256, 8, 8]⟩
abbrev S256x512 : Shape := ⟨2, ![256, 512]⟩
abbrev S256x1x64 : Shape := ⟨3, ![256, 1, 64]⟩
abbrev S256x8x64 : Shape := ⟨3, ![256, 8, 64]⟩
abbrev S256x64x1 : Shape := ⟨3, ![256, 64, 1]⟩
abbrev S256x64x8 : Shape := ⟨3, ![256, 64, 8]⟩
abbrev S256x4096 : Shape := ⟨2, ![256, 4096]⟩
abbrev S256x1x512 : Shape := ⟨3, ![256, 1, 512]⟩
abbrev S256x8x512 : Shape := ⟨3, ![256, 8, 512]⟩
abbrev S256x64x64 : Shape := ⟨3, ![256, 64, 64]⟩

abbrev nBuf : Space → Nat
  | .hbm => 3
  | .vmem => 6
  | .smem => 0
  | _ => 0

abbrev bufTy : (tb : Table) → Fin (tcTables nBuf tb) → BufTy
  | .hbm, ⟨0, _⟩ => ⟨S16384x4680, .f32⟩
  | .hbm, ⟨1, _⟩ => ⟨S16384x4680, .f32⟩
  | .hbm, ⟨2, _⟩ => ⟨S16384x4680, .f32⟩
  | .local _ .vmem, ⟨0, _⟩ => ⟨S256x4680, .f32⟩
  | .local _ .vmem, ⟨1, _⟩ => ⟨S256x4680, .f32⟩
  | .local _ .vmem, ⟨2, _⟩ => ⟨S256x4680, .f32⟩
  | .local _ .vmem, ⟨3, _⟩ => ⟨S256x4680, .f32⟩
  | .local _ .vmem, ⟨4, _⟩ => ⟨S256x4680, .f32⟩
  | .local _ .vmem, ⟨5, _⟩ => ⟨S256x4680, .f32⟩
  | _, _ => ⟨S16384x4680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4680 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4680 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4680_S256x8_0_0 : ∀ a, (![0, 0] : Fin 2 → Nat) a + S256x8.size a ≤ S256x4680.size a
  h_S256x8 : 0 < S256x8.numel
  inb_S256x4680_S256x64_0_8 : ∀ a, (![0, 8] : Fin 2 → Nat) a + S256x64.size a ≤ S256x4680.size a
  h_S256x64 : 0 < S256x64.numel
  shapeCasts_S256x8_S256x8x1 : S256x8.ShapeCasts S256x8x1
  shapeCasts_S256x8_S256x1x8 : S256x8.ShapeCasts S256x1x8
  broadcasts_S256x8x1_S256x8x8 : S256x8x1.Broadcasts S256x8x8
  broadcasts_S256x1x8_S256x8x8 : S256x1x8.Broadcasts S256x8x8
  shapeCasts_S256x8x8_S256x64 : S256x8x8.ShapeCasts S256x64
  inb_S256x4680_S256x512_0_72 : ∀ a, (![0, 72] : Fin 2 → Nat) a + S256x512.size a ≤ S256x4680.size a
  h_S256x512 : 0 < S256x512.numel
  shapeCasts_S256x64_S256x1x64 : S256x64.ShapeCasts S256x1x64
  broadcasts_S256x8x1_S256x8x64 : S256x8x1.Broadcasts S256x8x64
  broadcasts_S256x1x64_S256x8x64 : S256x1x64.Broadcasts S256x8x64
  shapeCasts_S256x8x64_S256x512 : S256x8x64.ShapeCasts S256x512
  shapeCasts_S256x64_S256x64x1 : S256x64.ShapeCasts S256x64x1
  broadcasts_S256x64x1_S256x64x8 : S256x64x1.Broadcasts S256x64x8
  broadcasts_S256x1x8_S256x64x8 : S256x1x8.Broadcasts S256x64x8
  shapeCasts_S256x64x8_S256x512 : S256x64x8.ShapeCasts S256x512
  inb_S256x4680_S256x4096_0_584 : ∀ a, (![0, 584] : Fin 2 → Nat) a + S256x4096.size a ≤ S256x4680.size a
  h_S256x4096 : 0 < S256x4096.numel
  shapeCasts_S256x512_S256x1x512 : S256x512.ShapeCasts S256x1x512
  broadcasts_S256x8x1_S256x8x512 : S256x8x1.Broadcasts S256x8x512
  broadcasts_S256x1x512_S256x8x512 : S256x1x512.Broadcasts S256x8x512
  shapeCasts_S256x8x512_S256x4096 : S256x8x512.ShapeCasts S256x4096
  broadcasts_S256x64x1_S256x64x64 : S256x64x1.Broadcasts S256x64x64
  broadcasts_S256x1x64_S256x64x64 : S256x1x64.Broadcasts S256x64x64
  shapeCasts_S256x64x64_S256x4096 : S256x64x64.ShapeCasts S256x4096
  slices_S256x512_o0_0_S256x64 : S256x512.Slices ![0, 0] S256x64
  slices_S256x512_o0_64_S256x64 : S256x512.Slices ![0, 64] S256x64
  slices_S256x512_o0_128_S256x64 : S256x512.Slices ![0, 128] S256x64
  slices_S256x512_o0_192_S256x64 : S256x512.Slices ![0, 192] S256x64
  slices_S256x512_o0_256_S256x64 : S256x512.Slices ![0, 256] S256x64
  slices_S256x512_o0_320_S256x64 : S256x512.Slices ![0, 320] S256x64
  slices_S256x512_o0_384_S256x64 : S256x512.Slices ![0, 384] S256x64
  slices_S256x512_o0_448_S256x64 : S256x512.Slices ![0, 448] S256x64
  concatenates_S256x512_S256x512_S256x512_S256x512_S256x512_S256x512_S256x512_S256x512_S256x4096_d1 : Shape.Concatenates [S256x512, S256x512, S256x512, S256x512, S256x512, S256x512, S256x512, S256x512] S256x4096 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4680.size a ≤ S16384x4680.size a
  hwx0_0 : ∀ i : grid0.Coords, EltTy.bits .f32 = 32 ∨ (Rect.block (s := S16384x4680) S256x4680.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4680.size a ≤ S16384x4680.size a
  hwx0_1 : ∀ i : grid0.Coords, EltTy.bits .f32 = 32 ∨ (Rect.block (s := S16384x4680) S256x4680.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4680.size a ≤ S16384x4680.size a
  hwx0_2 : ∀ i : grid0.Coords, EltTy.bits .f32 = 32 ∨ (Rect.block (s := S16384x4680) S256x4680.size (cc0_transform_2 i) (hinb0_2 i)).WholeWords (EltTy.packing .f32)

variable [Facts₀]

abbrev win0_0 : Pipeline.Window sig grid0 :=
  Pipeline.Window.ofSpec (Memref.whole main_arg0) S256x4680.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4680.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4680.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4680 : Shape := ⟨2, ![16384, 4680]⟩
abbrev S16384x8 : Shape := ⟨2, ![16384, 8]⟩
abbrev S16384x64 : Shape := ⟨2, ![16384, 64]⟩
abbrev S16384x512 : Shape := ⟨2, ![16384, 512]⟩
abbrev S16384x4096 : Shape := ⟨2, ![16384, 4096]⟩
abbrev S16384x8x1 : Shape := ⟨3, ![16384, 8, 1]⟩
abbrev S16384x1x8 : Shape := ⟨3, ![16384, 1, 8]⟩
abbrev S16384x8x8 : Shape := ⟨3, ![16384, 8, 8]⟩
abbrev S16384x1x64 : Shape := ⟨3, ![16384, 1, 64]⟩
abbrev S16384x8x64 : Shape := ⟨3, ![16384, 8, 64]⟩
abbrev S16384x64x1 : Shape := ⟨3, ![16384, 64, 1]⟩
abbrev S16384x64x8 : Shape := ⟨3, ![16384, 64, 8]⟩
abbrev S16384x1x512 : Shape := ⟨3, ![16384, 1, 512]⟩
abbrev S16384x8x512 : Shape := ⟨3, ![16384, 8, 512]⟩
abbrev S16384x64x64 : Shape := ⟨3, ![16384, 64, 64]⟩
abbrev S16384x512x1 : Shape := ⟨3, ![16384, 512, 1]⟩
abbrev S16384x512x8 : Shape := ⟨3, ![16384, 512, 8]⟩

abbrev nBuf : Space → Nat
  | .hbm => 57
  | .vmem => 0
  | .smem => 0
  | _ => 0

abbrev bufTy : (tb : Table) → Fin (tcTables nBuf tb) → BufTy
  | .hbm, ⟨0, _⟩ => ⟨S16384x4680, .f32⟩
  | .hbm, ⟨1, _⟩ => ⟨S16384x4680, .f32⟩
  | .hbm, ⟨2, _⟩ => ⟨S16384x8, .f32⟩
  | .hbm, ⟨3, _⟩ => ⟨S16384x64, .f32⟩
  | .hbm, ⟨4, _⟩ => ⟨S16384x512, .f32⟩
  | .hbm, ⟨5, _⟩ => ⟨S16384x4096, .f32⟩
  | .hbm, ⟨6, _⟩ => ⟨S16384x8, .f32⟩
  | .hbm, ⟨7, _⟩ => ⟨S16384x64, .f32⟩
  | .hbm, ⟨8, _⟩ => ⟨S16384x512, .f32⟩
  | .hbm, ⟨9, _⟩ => ⟨S16384x4096, .f32⟩
  | .hbm, ⟨10, _⟩ => ⟨S16384x8, .f32⟩
  | .hbm, ⟨11, _⟩ => ⟨S16384x64, .f32⟩
  | .hbm, ⟨12, _⟩ => ⟨S16384x8x1, .f32⟩
  | .hbm, ⟨13, _⟩ => ⟨S16384x1x8, .f32⟩
  | .hbm, ⟨14, _⟩ => ⟨S16384x8x8, .f32⟩
  | .hbm, ⟨15, _⟩ => ⟨S16384x8x8, .f32⟩
  | .hbm, ⟨16, _⟩ => ⟨S16384x8x8, .f32⟩
  | .hbm, ⟨17, _⟩ => ⟨S16384x64, .f32⟩
  | .hbm, ⟨18, _⟩ => ⟨S16384x64, .f32⟩
  | .hbm, ⟨19, _⟩ => ⟨S16384x512, .f32⟩
  | .hbm, ⟨20, _⟩ => ⟨S16384x8x1, .f32⟩
  | .hbm, ⟨21, _⟩ => ⟨S16384x1x64, .f32⟩
  | .hbm, ⟨22, _⟩ => ⟨S16384x8x64, .f32⟩
  | .hbm, ⟨23, _⟩ => ⟨S16384x8x64, .f32⟩
  | .hbm, ⟨24, _⟩ => ⟨S16384x8x64, .f32⟩
  | .hbm, ⟨25, _⟩ => ⟨S16384x512, .f32⟩
  | .hbm, ⟨26, _⟩ => ⟨S16384x512, .f32⟩
  | .hbm, ⟨27, _⟩ => ⟨S16384x64x1, .f32⟩
  | .hbm, ⟨28, _⟩ => ⟨S16384x1x8, .f32⟩
  | .hbm, ⟨29, _⟩ => ⟨S16384x64x8, .f32⟩
  | .hbm, ⟨30, _⟩ => ⟨S16384x64x8, .f32⟩
  | .hbm, ⟨31, _⟩ => ⟨S16384x64x8, .f32⟩
  | .hbm, ⟨32, _⟩ => ⟨S16384x512, .f32⟩
  | .hbm, ⟨33, _⟩ => ⟨S16384x512, .f32⟩
  | .hbm, ⟨34, _⟩ => ⟨S16384x4096, .f32⟩
  | .hbm, ⟨35, _⟩ => ⟨S16384x8x1, .f32⟩
  | .hbm, ⟨36, _⟩ => ⟨S16384x1x512, .f32⟩
  | .hbm, ⟨37, _⟩ => ⟨S16384x8x512, .f32⟩
  | .hbm, ⟨38, _⟩ => ⟨S16384x8x512, .f32⟩
  | .hbm, ⟨39, _⟩ => ⟨S16384x8x512, .f32⟩
  | .hbm, ⟨40, _⟩ => ⟨S16384x4096, .f32⟩
  | .hbm, ⟨41, _⟩ => ⟨S16384x4096, .f32⟩
  | .hbm, ⟨42, _⟩ => ⟨S16384x64x1, .f32⟩
  | .hbm, ⟨43, _⟩ => ⟨S16384x1x64, .f32⟩
  | .hbm, ⟨44, _⟩ => ⟨S16384x64x64, .f32⟩
  | .hbm, ⟨45, _⟩ => ⟨S16384x64x64, .f32⟩
  | .hbm, ⟨46, _⟩ => ⟨S16384x64x64, .f32⟩
  | .hbm, ⟨47, _⟩ => ⟨S16384x4096, .f32⟩
  | .hbm, ⟨48, _⟩ => ⟨S16384x4096, .f32⟩
  | .hbm, ⟨49, _⟩ => ⟨S16384x512x1, .f32⟩
  | .hbm, ⟨50, _⟩ => ⟨S16384x1x8, .f32⟩
  | .hbm, ⟨51, _⟩ => ⟨S16384x512x8, .f32⟩
  | .hbm, ⟨52, _⟩ => ⟨S16384x512x8, .f32⟩
  | .hbm, ⟨53, _⟩ => ⟨S16384x512x8, .f32⟩
  | .hbm, ⟨54, _⟩ => ⟨S16384x4096, .f32⟩
  | .hbm, ⟨55, _⟩ => ⟨S16384x4096, .f32⟩
  | .hbm, ⟨56, _⟩ => ⟨S16384x4680, .f32⟩
  | _, _ => ⟨S16384x4680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩

abbrev nD : Nat := 1
abbrev τ : Topo := Topo.v7x

variable {F : FTy → Type} [FloatOps F]

class Facts₀ : Prop where
  slices_S16384x4680_S16384x8_0_0 : S16384x4680.Slices ![0, 0] S16384x8
  slices_S16384x4680_S16384x64_0_8 : S16384x4680.Slices ![0, 8] S16384x64
  slices_S16384x4680_S16384x512_0_72 : S16384x4680.Slices ![0, 72] S16384x512
  slices_S16384x4680_S16384x4096_0_584 : S16384x4680.Slices ![0, 584] S16384x4096
  bcast_S16384x8_S16384x8x1_0_1 : S16384x8.BroadcastsInDim S16384x8x1 (![0, 1] : Fin 2 → Fin S16384x8x1.rank)
  bcast_S16384x8_S16384x1x8_0_2 : S16384x8.BroadcastsInDim S16384x1x8 (![0, 2] : Fin 2 → Fin S16384x1x8.rank)
  bcast_S16384x8x1_S16384x8x8_0_1_2 : S16384x8x1.BroadcastsInDim S16384x8x8 (![0, 1, 2] : Fin 3 → Fin S16384x8x8.rank)
  bcast_S16384x1x8_S16384x8x8_0_1_2 : S16384x1x8.BroadcastsInDim S16384x8x8 (![0, 1, 2] : Fin 3 → Fin S16384x8x8.rank)
  shapeCasts_S16384x8x8_S16384x64 : S16384x8x8.ShapeCasts S16384x64
  bcast_S16384x64_S16384x1x64_0_2 : S16384x64.BroadcastsInDim S16384x1x64 (![0, 2] : Fin 2 → Fin S16384x1x64.rank)
  bcast_S16384x8x1_S16384x8x64_0_1_2 : S16384x8x1.BroadcastsInDim S16384x8x64 (![0, 1, 2] : Fin 3 → Fin S16384x8x64.rank)
  bcast_S16384x1x64_S16384x8x64_0_1_2 : S16384x1x64.BroadcastsInDim S16384x8x64 (![0, 1, 2] : Fin 3 → Fin S16384x8x64.rank)
  shapeCasts_S16384x8x64_S16384x512 : S16384x8x64.ShapeCasts S16384x512
  bcast_S16384x64_S16384x64x1_0_1 : S16384x64.BroadcastsInDim S16384x64x1 (![0, 1] : Fin 2 → Fin S16384x64x1.rank)
  bcast_S16384x64x1_S16384x64x8_0_1_2 : S16384x64x1.BroadcastsInDim S16384x64x8 (![0, 1, 2] : Fin 3 → Fin S16384x64x8.rank)
  bcast_S16384x1x8_S16384x64x8_0_1_2 : S16384x1x8.BroadcastsInDim S16384x64x8 (![0, 1, 2] : Fin 3 → Fin S16384x64x8.rank)
  shapeCasts_S16384x64x8_S16384x512 : S16384x64x8.ShapeCasts S16384x512
  bcast_S16384x512_S16384x1x512_0_2 : S16384x512.BroadcastsInDim S16384x1x512 (![0, 2] : Fin 2 → Fin S16384x1x512.rank)
  bcast_S16384x8x1_S16384x8x512_0_1_2 : S16384x8x1.BroadcastsInDim S16384x8x512 (![0, 1, 2] : Fin 3 → Fin S16384x8x512.rank)
  bcast_S16384x1x512_S16384x8x512_0_1_2 : S16384x1x512.BroadcastsInDim S16384x8x512 (![0, 1, 2] : Fin 3 → Fin S16384x8x512.rank)
  shapeCasts_S16384x8x512_S16384x4096 : S16384x8x512.ShapeCasts S16384x4096
  bcast_S16384x64x1_S16384x64x64_0_1_2 : S16384x64x1.BroadcastsInDim S16384x64x64 (![0, 1, 2] : Fin 3 → Fin S16384x64x64.rank)
  bcast_S16384x1x64_S16384x64x64_0_1_2 : S16384x1x64.BroadcastsInDim S16384x64x64 (![0, 1, 2] : Fin 3 → Fin S16384x64x64.rank)
  shapeCasts_S16384x64x64_S16384x4096 : S16384x64x64.ShapeCasts S16384x4096
  bcast_S16384x512_S16384x512x1_0_1 : S16384x512.BroadcastsInDim S16384x512x1 (![0, 1] : Fin 2 → Fin S16384x512x1.rank)
  bcast_S16384x512x1_S16384x512x8_0_1_2 : S16384x512x1.BroadcastsInDim S16384x512x8 (![0, 1, 2] : Fin 3 → Fin S16384x512x8.rank)
  bcast_S16384x1x8_S16384x512x8_0_1_2 : S16384x1x8.BroadcastsInDim S16384x512x8 (![0, 1, 2] : Fin 3 → Fin S16384x512x8.rank)
  shapeCasts_S16384x512x8_S16384x4096 : S16384x512x8.ShapeCasts S16384x4096
  concatenates_S16384x8_S16384x64_S16384x512_S16384x4096_S16384x4680_d1 : Shape.Concatenates [S16384x8, S16384x64, S16384x512, S16384x4096] S16384x4680 1

variable [Facts₀]

class Facts : Prop extends Facts₀ where

variable [Facts]
-- ==== Proof.LibOuterCols.lean ====
/-
  The outer product of two matrices' rows, laid out flat.

  For `A : [R, M]` and `B : [R, N]` the array `A[:, :, None] * B[:, None, :]` reshaped to `[R, M * N]` holds, in row `r`
  and column `k`, the product `A (r, k / N) * B (r, k % N)`: column `k` of the flat row is entry `(k / N, k % N)` of the
  row's `M × N` outer product in row-major order. `outer_cast_apply` states this for the vector-unit spelling (each factor
  given a unit axis by a shape cast, both broadcast to `[R, M, N]`, multiplied, and the product cast to `[R, K]` with
  `K = M * N`), read at one index on the extended reals. The two column indices are taken as arbitrary indices with their
  values given by hypotheses, so a caller names them in whatever form its own statement uses.
-/
import Idealize.ShloMosaic.Lib.ValueIdx
import Idealize.ShloMosaic.Lib.Pipeline.Value

noncomputable section

namespace Cert.LibOuterCols

open Idealize.ShloMosaic Idealize.ShloMosaic.ValueIdx

/-- Entry `(r, k)` of the flattened outer product of the rows of `A` and `B` is `A (r, k / N) * B (r, k % N)`. -/
theorem outer_cast_apply {R M N K : ℕ} {φ : FTy} (hK : K = M * N)
    (A : FVec Ideal ⟨2, ![R, M]⟩ φ) (B : FVec Ideal ⟨2, ![R, N]⟩ φ)
    (hA : (⟨2, ![R, M]⟩ : Shape).ShapeCasts ⟨3, ![R, M, 1]⟩)
    (hB : (⟨2, ![R, N]⟩ : Shape).ShapeCasts ⟨3, ![R, 1, N]⟩)
    (hbA : (⟨3, ![R, M, 1]⟩ : Shape).Broadcasts ⟨3, ![R, M, N]⟩)
    (hbB : (⟨3, ![R, 1, N]⟩ : Shape).Broadcasts ⟨3, ![R, M, N]⟩)
    (hO : (⟨3, ![R, M, N]⟩ : Shape).ShapeCasts ⟨2, ![R, K]⟩)
    (r : Fin R) (k : Fin K) (p : Fin M) (q : Fin N) (hp : p.val = k.val / N) (hq : q.val = k.val % N) :
    shapeCast ⟨2, ![R, K]⟩ (mulf (broadcastTo ⟨3, ![R, M, N]⟩ (shapeCast ⟨3, ![R, M, 1]⟩ A hA) hbA)
        (broadcastTo ⟨3, ![R, M, N]⟩ (shapeCast ⟨3, ![R, 1, N]⟩ B hB) hbB)) hO (ix2 r k)
      = A (ix2 r p) * B (ix2 r q) := by
  have hr := r.isLt
  have hpl := p.isLt
  have hql := q.isLt
  refine (shapeCast_apply _ hO (ix2 r k) (ix3 r p q) ?_).trans ?_
  · rw [Shape.rowMajor_val_three, Shape.rowMajor_val_two]
    show (r.val * M + p.val) * N + q.val = r.val * K + k.val
    have h := Nat.div_add_mod k.val N
    have e1 : (r.val * M + k.val / N) * N = r.val * (M * N) + N * (k.val / N) := by ring
    rw [hp, hq, e1, Nat.add_assoc, h, ← hK]
  · rw [mulf_apply]
    refine congrArg₂ (· * ·) ?_ ?_
    · refine (broadcastTo_apply _ hbA (ix3 r p q) (ix3 r p (⟨0, Nat.one_pos⟩ : Fin 1)) ?_).trans ?_
      · intro a
        match a with
        | ⟨0, _⟩ => show r.val = if R = 1 then 0 else r.val; split_ifs <;> omega
        | ⟨1, _⟩ => show p.val = if M = 1 then 0 else p.val; split_ifs <;> omega
        | ⟨2, _⟩ => show 0 = if (1 : ℕ) = 1 then 0 else q.val; rw [if_pos rfl]
      · refine shapeCast_apply A hA _ (ix2 r p) ?_
        rw [Shape.rowMajor_val_three, Shape.rowMajor_val_two]
        show r.val * M + p.val = (r.val * M + p.val) * 1 + 0
        omega
    · refine (broadcastTo_apply _ hbB (ix3 r p q) (ix3 r (⟨0, Nat.one_pos⟩ : Fin 1) q) ?_).trans ?_
      · intro a
        match a with
        | ⟨0, _⟩ => show r.val = if R = 1 then 0 else r.val; split_ifs <;> omega
        | ⟨1, _⟩ => show 0 = if (1 : ℕ) = 1 then 0 else p.val; rw [if_pos rfl]
        | ⟨2, _⟩ => show q.val = if N = 1 then 0 else q.val; split_ifs <;> omega
      · refine shapeCast_apply B hB _ (ix2 r q) ?_
        rw [Shape.rowMajor_val_three, Shape.rowMajor_val_two]
        show r.val * N + q.val = (r.val * 1 + 0) * N + q.val
        rw [Nat.mul_one, Nat.add_zero]

end Cert.LibOuterCols

end
-- ==== Proof.LibConcatEight.lean ====
/-
  Eight matrices of one shape laid side by side, read at an index.

  For `x0, …, x7 : [n, a]` joined along the columns into `[n, c]` (`c = 8 * a`), column `q * a + e` of row `r` of the
  joined array (`q < 8`, `e < a`) is piece `q` at `(r, e)`: piece `q` starts at column `q * a`. The piece is named by
  its number `q` in the tuple `![x0, …, x7]`, so that a caller whose column is only known through its quotient by `a`
  can split on that quotient afterwards.
-/
import Idealize.ShloMosaic.Lib.ValueIdx
import Idealize.ShloMosaic.Lib.Pipeline.Value

noncomputable section

namespace Cert.LibConcatEight

open Idealize.ShloMosaic Idealize.ShloMosaic.ValueIdx

variable {α : Type}

/-- Column `q * a + e` of eight `[n, a]` matrices laid side by side is piece `q` at column `e`. -/
theorem concat8_cols {n a c : ℕ} (x0 x1 x2 x3 x4 x5 x6 x7 : (⟨2, ![n, a]⟩ : Shape).Idx → α)
    (h : Shape.Concatenates [(⟨2, ![n, a]⟩ : Shape), ⟨2, ![n, a]⟩, ⟨2, ![n, a]⟩, ⟨2, ![n, a]⟩, ⟨2, ![n, a]⟩, ⟨2, ![n, a]⟩,
      ⟨2, ![n, a]⟩, ⟨2, ![n, a]⟩] ⟨2, ![n, c]⟩ (1 : Fin 2))
    (r : Fin n) (q : Fin 8) (e : Fin a) (j : Fin c) (hj : j.val = q.val * a + e.val) :
    concatenate ⟨2, ![n, c]⟩ (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j)
      = (![x0, x1, x2, x3, x4, x5, x6, x7] : Fin 8 → ((⟨2, ![n, a]⟩ : Shape).Idx → α)) q (ix2 r e) :=
  match q, hj with
  | ⟨0, _⟩, hj =>
    concatenate_apply_piece (t := ⟨2, ![n, c]⟩) (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j) 0 (by simp) ⟨2, ![n, a]⟩ x0 rfl rfl (0 * a)
      (by simp <;> omega) (ix2 r e) (fun bx hb => by
        match bx with
        | ⟨0, _⟩ => rfl
        | ⟨1, _⟩ => exact absurd rfl hb)
      (by have h' : j.val = 0 * a + e.val := hj; show 0 * a + e.val = j.val; omega)
  | ⟨1, _⟩, hj =>
    concatenate_apply_piece (t := ⟨2, ![n, c]⟩) (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j) 1 (by simp) ⟨2, ![n, a]⟩ x1 rfl rfl (1 * a)
      (by simp <;> omega) (ix2 r e) (fun bx hb => by
        match bx with
        | ⟨0, _⟩ => rfl
        | ⟨1, _⟩ => exact absurd rfl hb)
      (by have h' : j.val = 1 * a + e.val := hj; show 1 * a + e.val = j.val; omega)
  | ⟨2, _⟩, hj =>
    concatenate_apply_piece (t := ⟨2, ![n, c]⟩) (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j) 2 (by simp) ⟨2, ![n, a]⟩ x2 rfl rfl (2 * a)
      (by simp <;> omega) (ix2 r e) (fun bx hb => by
        match bx with
        | ⟨0, _⟩ => rfl
        | ⟨1, _⟩ => exact absurd rfl hb)
      (by have h' : j.val = 2 * a + e.val := hj; show 2 * a + e.val = j.val; omega)
  | ⟨3, _⟩, hj =>
    concatenate_apply_piece (t := ⟨2, ![n, c]⟩) (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j) 3 (by simp) ⟨2, ![n, a]⟩ x3 rfl rfl (3 * a)
      (by simp <;> omega) (ix2 r e) (fun bx hb => by
        match bx with
        | ⟨0, _⟩ => rfl
        | ⟨1, _⟩ => exact absurd rfl hb)
      (by have h' : j.val = 3 * a + e.val := hj; show 3 * a + e.val = j.val; omega)
  | ⟨4, _⟩, hj =>
    concatenate_apply_piece (t := ⟨2, ![n, c]⟩) (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j) 4 (by simp) ⟨2, ![n, a]⟩ x4 rfl rfl (4 * a)
      (by simp <;> omega) (ix2 r e) (fun bx hb => by
        match bx with
        | ⟨0, _⟩ => rfl
        | ⟨1, _⟩ => exact absurd rfl hb)
      (by have h' : j.val = 4 * a + e.val := hj; show 4 * a + e.val = j.val; omega)
  | ⟨5, _⟩, hj =>
    concatenate_apply_piece (t := ⟨2, ![n, c]⟩) (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j) 5 (by simp) ⟨2, ![n, a]⟩ x5 rfl rfl (5 * a)
      (by simp <;> omega) (ix2 r e) (fun bx hb => by
        match bx with
        | ⟨0, _⟩ => rfl
        | ⟨1, _⟩ => exact absurd rfl hb)
      (by have h' : j.val = 5 * a + e.val := hj; show 5 * a + e.val = j.val; omega)
  | ⟨6, _⟩, hj =>
    concatenate_apply_piece (t := ⟨2, ![n, c]⟩) (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j) 6 (by simp) ⟨2, ![n, a]⟩ x6 rfl rfl (6 * a)
      (by simp <;> omega) (ix2 r e) (fun bx hb => by
        match bx with
        | ⟨0, _⟩ => rfl
        | ⟨1, _⟩ => exact absurd rfl hb)
      (by have h' : j.val = 6 * a + e.val := hj; show 6 * a + e.val = j.val; omega)
  | ⟨7, _⟩, hj =>
    concatenate_apply_piece (t := ⟨2, ![n, c]⟩) (1 : Fin 2) [⟨⟨2, ![n, a]⟩, x0⟩, ⟨⟨2, ![n, a]⟩, x1⟩, ⟨⟨2, ![n, a]⟩, x2⟩, ⟨⟨2, ![n, a]⟩, x3⟩, ⟨⟨2, ![n, a]⟩, x4⟩, ⟨⟨2, ![n, a]⟩, x5⟩, ⟨⟨2, ![n, a]⟩, x6⟩, ⟨⟨2, ![n, a]⟩, x7⟩] h (ix2 r j) 7 (by simp) ⟨2, ![n, a]⟩ x7 rfl rfl (7 * a)
      (by simp <;> omega) (ix2 r e) (fun bx hb => by
        match bx with
        | ⟨0, _⟩ => rfl
        | ⟨1, _⟩ => exact absurd rfl hb)
      (by have h' : j.val = 7 * a + e.val := hj; show 7 * a + e.val = j.val; omega)

end Cert.LibConcatEight

end
-- ==== Proof.Payloads.lean ====
/-
  What the kernel body stores, entry by entry, on the extended reals.

  The body handles a block of 256 rows. It stores four values, one per level of the signature, each computed from
  column stretches of the two input blocks. Read at row `r` and column `k` of the stored value:

  * level 2: `(a2 + b2) (r, k) + a1 (r, k / 8) * b1 (r, k % 8)`;
  * level 3: `((a3 + b3) (r, k) + a1 (r, k / 64) * b2 (r, k % 64)) + a2 (r, k / 8) * b1 (r, k % 8)`;
  * level 4: the sum of levels and the two cross terms `a1 ⊗ b3`, `a2 ⊗ b2` as above, plus `a3 ⊗ b1`, which the body
    computes in eight chunks of 64 rows of `a3` (columns `64 q … 64 q + 63` of `a3`, `q < 8`) and lays side by side:
    column `k = 512 q + e` of the joined value is `a3 (r, 64 q + e / 8) * b1 (r, e % 8)`, and `64 q + e / 8 = k / 8`,
    `e % 8 = k % 8`, so the chunks together are the unchunked outer product.

  Every factor's index is taken as an arbitrary index with its value given by a hypothesis.
-/
import proofs.«115332_j82222853915370_2_alg».proof.Proof.Gen.KernelIdeal.Skeleton
import proofs.«115332_j82222853915370_2_alg».proof.Proof.LibOuterCols
import proofs.«115332_j82222853915370_2_alg».proof.Proof.LibConcatEight
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen
open Cert.LibOuterCols Cert.LibConcatEight

/-- Level 1: the two level-1 stretches added. -/
theorem pay2_apply (v0 v1 : FVec Ideal S256x8 .f32) (i : S256x8.Idx) :
    k0_pay2 (F := Ideal) v0 v1 i = v0 i + v1 i := rfl

/-- Level 2. -/
theorem pay3_apply (v4 v5 : FVec Ideal S256x64 .f32) (v7 v8 : FVec Ideal S256x8 .f32) (r : Fin 256) (k : Fin 64)
    (p q : Fin 8) (hp : p.val = k.val / 8) (hq : q.val = k.val % 8) :
    k0_pay3 (F := Ideal) v4 v5 v7 v8 (ix2 r k) = (v4 (ix2 r k) + v5 (ix2 r k)) + v7 (ix2 r p) * v8 (ix2 r q) := by
  unfold k0_pay3
  exact congrArg ((v4 (ix2 r k) + v5 (ix2 r k)) + ·)
    (outer_cast_apply (R := 256) (M := 8) (N := 8) (K := 64) rfl v7 v8 shapeCasts_S256x8_S256x8x1 shapeCasts_S256x8_S256x1x8
      broadcasts_S256x8x1_S256x8x8 broadcasts_S256x1x8_S256x8x8 shapeCasts_S256x8x8_S256x64 r k p q hp hq)

/-- Level 3, up to its first cross term `a1 ⊗ b2`. -/
theorem pay4_apply (v17 v18 : FVec Ideal S256x512 .f32) (v20 : FVec Ideal S256x8 .f32) (v21 : FVec Ideal S256x64 .f32)
    (r : Fin 256) (k : Fin 512) (p : Fin 8) (q : Fin 64) (hp : p.val = k.val / 64) (hq : q.val = k.val % 64) :
    k0_pay4 (F := Ideal) v17 v18 v20 v21 (ix2 r k) = (v17 (ix2 r k) + v18 (ix2 r k)) + v20 (ix2 r p) * v21 (ix2 r q) := by
  unfold k0_pay4
  exact congrArg ((v17 (ix2 r k) + v18 (ix2 r k)) + ·)
    (outer_cast_apply (R := 256) (M := 8) (N := 64) (K := 512) rfl v20 v21 shapeCasts_S256x8_S256x8x1 shapeCasts_S256x64_S256x1x64
      broadcasts_S256x8x1_S256x8x64 broadcasts_S256x1x64_S256x8x64 shapeCasts_S256x8x64_S256x512 r k p q hp hq)

/-- Level 3: its second cross term `a2 ⊗ b1` added to what came before. -/
theorem pay5_apply (v28 : FVec Ideal S256x512 .f32) (v29 : FVec Ideal S256x64 .f32) (v30 : FVec Ideal S256x8 .f32)
    (r : Fin 256) (k : Fin 512) (p : Fin 64) (q : Fin 8) (hp : p.val = k.val / 8) (hq : q.val = k.val % 8) :
    k0_pay5 (F := Ideal) v28 v29 v30 (ix2 r k) = v28 (ix2 r k) + v29 (ix2 r p) * v30 (ix2 r q) := by
  unfold k0_pay5
  exact congrArg (v28 (ix2 r k) + ·)
    (outer_cast_apply (R := 256) (M := 64) (N := 8) (K := 512) rfl v29 v30 shapeCasts_S256x64_S256x64x1 shapeCasts_S256x8_S256x1x8
      broadcasts_S256x64x1_S256x64x8 broadcasts_S256x1x8_S256x64x8 shapeCasts_S256x64x8_S256x512 r k p q hp hq)

/-- Level 4, up to its first two cross terms `a1 ⊗ b3` and `a2 ⊗ b2`. -/
theorem pay6_apply (v39 v40 : FVec Ideal S256x4096 .f32) (v42 : FVec Ideal S256x8 .f32) (v43 : FVec Ideal S256x512 .f32)
    (v51 v52 : FVec Ideal S256x64 .f32) (r : Fin 256) (k : Fin 4096)
    (p : Fin 8) (q : Fin 512) (hp : p.val = k.val / 512) (hq : q.val = k.val % 512)
    (p' q' : Fin 64) (hp' : p'.val = k.val / 64) (hq' : q'.val = k.val % 64) :
    k0_pay6 (F := Ideal) v39 v40 v42 v43 v51 v52 (ix2 r k)
      = ((v39 (ix2 r k) + v40 (ix2 r k)) + v42 (ix2 r p) * v43 (ix2 r q)) + v51 (ix2 r p') * v52 (ix2 r q') := by
  unfold k0_pay6
  refine congrArg₂ (· + ·) (congrArg ((v39 (ix2 r k) + v40 (ix2 r k)) + ·) ?_) ?_
  · exact outer_cast_apply (R := 256) (M := 8) (N := 512) (K := 4096) rfl v42 v43 shapeCasts_S256x8_S256x8x1
      shapeCasts_S256x512_S256x1x512 broadcasts_S256x8x1_S256x8x512 broadcasts_S256x1x512_S256x8x512
      shapeCasts_S256x8x512_S256x4096 r k p q hp hq
  · exact outer_cast_apply (R := 256) (M := 64) (N := 64) (K := 4096) rfl v51 v52 shapeCasts_S256x64_S256x64x1
      shapeCasts_S256x64_S256x1x64 broadcasts_S256x64x1_S256x64x64 broadcasts_S256x1x64_S256x64x64
      shapeCasts_S256x64x64_S256x4096 r k p' q' hp' hq'

/-- One chunk of `a3 ⊗ b1`: 64 columns of `a3` from column `off` on, against `b1`. Entry `(r, e)` is
    `a3 (r, off + e / 8) * b1 (r, e % 8)`. -/
theorem chunk_apply (off : ℕ) (hs : S256x512.Slices ![0, off] S256x64) (v60 : FVec Ideal S256x512 .f32)
    (v61 : FVec Ideal S256x8 .f32) (r : Fin 256) (e : Fin 512) (p : Fin 512) (q : Fin 8)
    (hp : p.val = off + e.val / 8) (hq : q.val = e.val % 8) :
    shapeCast S256x512 (mulf (broadcastTo S256x64x8 (shapeCast S256x64x1 (extractStridedSlice S256x64 ![0, off] v60 hs)
        shapeCasts_S256x64_S256x64x1) broadcasts_S256x64x1_S256x64x8)
      (broadcastTo S256x64x8 (shapeCast S256x1x8 v61 shapeCasts_S256x8_S256x1x8) broadcasts_S256x1x8_S256x64x8))
      shapeCasts_S256x64x8_S256x512 (ix2 r e) = v60 (ix2 r p) * v61 (ix2 r q) := by
  have he := e.isLt
  refine (outer_cast_apply (R := 256) (M := 64) (N := 8) (K := 512) rfl (extractStridedSlice S256x64 ![0, off] v60 hs) v61
    shapeCasts_S256x64_S256x64x1 shapeCasts_S256x8_S256x1x8 broadcasts_S256x64x1_S256x64x8 broadcasts_S256x1x8_S256x64x8
    shapeCasts_S256x64x8_S256x512 r e ⟨e.val / 8, by omega⟩ q rfl hq).trans ?_
  refine congrArg (· * v61 (ix2 r q)) ?_
  refine extractStridedSlice_apply ![0, off] v60 hs (ix2 r ⟨e.val / 8, by omega⟩) (ix2 r p) fun a => ?_
  match a with
  | ⟨0, _⟩ => show r.val = 0 + r.val; omega
  | ⟨1, _⟩ => show p.val = off + e.val / 8; exact hp

/-- Level 4: the third cross term `a3 ⊗ b1`, computed in eight chunks laid side by side, added to what came before.
    Column `k` lies in chunk `k / 512` at the chunk's column `k % 512`; whichever chunk it is, the entry is
    `a3 (r, k / 8) * b1 (r, k % 8)`. -/
theorem pay1_apply (v59 : FVec Ideal S256x4096 .f32) (v60 : FVec Ideal S256x512 .f32) (v61 : FVec Ideal S256x8 .f32)
    (r : Fin 256) (k : Fin 4096) (p : Fin 512) (q : Fin 8) (hp : p.val = k.val / 8) (hq : q.val = k.val % 8) :
    k0_pay1 (F := Ideal) v59 v60 v61 (k0_pay7 v60 v61) (k0_pay8 v60) (ix2 r k)
      = v59 (ix2 r k) + v60 (ix2 r p) * v61 (ix2 r q) := by
  have hk := k.isLt
  unfold k0_pay1 k0_pay7 k0_pay8
  refine congrArg (v59 (ix2 r k) + ·) ?_
  obtain ⟨n, hn⟩ : ∃ n : Fin 8, n.val = k.val / 512 := ⟨⟨k.val / 512, by omega⟩, rfl⟩
  refine (concat8_cols (n := 256) (a := 512) (c := 4096) _ _ _ _ _ _ _ _
    concatenates_S256x512_S256x512_S256x512_S256x512_S256x512_S256x512_S256x512_S256x512_S256x4096_d1
    r n ⟨k.val % 512, by omega⟩ k (by show k.val = n.val * 512 + k.val % 512; omega)).trans ?_
  match n, hn with
  | ⟨0, _⟩, hn => exact chunk_apply 0 _ v60 v61 r _ p q (by show p.val = 0 + k.val % 512 / 8; have : k.val / 512 = 0 := hn.symm; omega) (by show q.val = k.val % 512 % 8; omega)
  | ⟨1, _⟩, hn => exact chunk_apply 64 _ v60 v61 r _ p q (by show p.val = 64 + k.val % 512 / 8; have : k.val / 512 = 1 := hn.symm; omega) (by show q.val = k.val % 512 % 8; omega)
  | ⟨2, _⟩, hn => exact chunk_apply 128 _ v60 v61 r _ p q (by show p.val = 128 + k.val % 512 / 8; have : k.val / 512 = 2 := hn.symm; omega) (by show q.val = k.val % 512 % 8; omega)
  | ⟨3, _⟩, hn => exact chunk_apply 192 _ v60 v61 r _ p q (by show p.val = 192 + k.val % 512 / 8; have : k.val / 512 = 3 := hn.symm; omega) (by show q.val = k.val % 512 % 8; omega)
  | ⟨4, _⟩, hn => exact chunk_apply 256 _ v60 v61 r _ p q (by show p.val = 256 + k.val % 512 / 8; have : k.val / 512 = 4 := hn.symm; omega) (by show q.val = k.val % 512 % 8; omega)
  | ⟨5, _⟩, hn => exact chunk_apply 320 _ v60 v61 r _ p q (by show p.val = 320 + k.val % 512 / 8; have : k.val / 512 = 5 := hn.symm; omega) (by show q.val = k.val % 512 % 8; omega)
  | ⟨6, _⟩, hn => exact chunk_apply 384 _ v60 v61 r _ p q (by show p.val = 384 + k.val % 512 / 8; have : k.val / 512 = 6 := hn.symm; omega) (by show q.val = k.val % 512 % 8; omega)
  | ⟨7, _⟩, hn => exact chunk_apply 448 _ v60 v61 r _ p q (by show p.val = 448 + k.val % 512 / 8; have : k.val / 512 = 7 := hn.symm; omega) (by show q.val = k.val % 512 % 8; omega)

end Cert.KernelIdeal.Pay

end
-- ==== Proof.Chen.lean ====
/-
  Chen's relation on truncated signatures, entry by entry.

  A row of 4680 numbers is a signature truncated at depth 4 over 8 channels: its levels 1 to 4 are the stretches of
  8, 64, 512 and 4096 columns that start at columns 0, 8, 72 and 584, and level `k` is a tensor of order `k` laid out
  in row-major order. For two such rows `a` and `b` Chen's relation gives level `k` of the combined signature as
  `a_k + b_k + Σ_{i=1}^{k-1} a_i ⊗ b_{k-i}`, where entry `e` of `a_i ⊗ b_j` (flattened, `b_j` of width `n`) is
  `a_i (e / n) * b_j (e % n)`. The sums are taken left to right, as written. `chen X Y` applies this to every row of two
  matrices with 4680 columns, whatever their number of rows; an entry depends only on its own row of `X` and of `Y`.
-/
import Idealize.ShloMosaic.Lib.ValueIdx

noncomputable section

namespace Cert.Chen

open Idealize.ShloMosaic Idealize.ShloMosaic.ValueIdx

/-- Level 1, entry `k`: `a_1 + b_1`. -/
def lvl1 (a b : Fin 4680 → EReal) (k : Fin 8) : EReal :=
  a ⟨k.val, by omega⟩ + b ⟨k.val, by omega⟩

/-- Level 2, entry `k`: `a_2 + b_2 + a_1 ⊗ b_1`. -/
def lvl2 (a b : Fin 4680 → EReal) (k : Fin 64) : EReal :=
  (a ⟨8 + k.val, by omega⟩ + b ⟨8 + k.val, by omega⟩)
    + a ⟨k.val / 8, by omega⟩ * b ⟨k.val % 8, by omega⟩

/-- Level 3, entry `k`: `a_3 + b_3 + a_1 ⊗ b_2 + a_2 ⊗ b_1`. -/
def lvl3 (a b : Fin 4680 → EReal) (k : Fin 512) : EReal :=
  ((a ⟨72 + k.val, by omega⟩ + b ⟨72 + k.val, by omega⟩)
    + a ⟨k.val / 64, by omega⟩ * b ⟨8 + k.val % 64, by omega⟩)
    + a ⟨8 + k.val / 8, by omega⟩ * b ⟨k.val % 8, by omega⟩

/-- Level 4, entry `k`: `a_4 + b_4 + a_1 ⊗ b_3 + a_2 ⊗ b_2 + a_3 ⊗ b_1`. -/
def lvl4 (a b : Fin 4680 → EReal) (k : Fin 4096) : EReal :=
  (((a ⟨584 + k.val, by omega⟩ + b ⟨584 + k.val, by omega⟩)
    + a ⟨k.val / 512, by omega⟩ * b ⟨72 + k.val % 512, by omega⟩)
    + a ⟨8 + k.val / 64, by omega⟩ * b ⟨8 + k.val % 64, by omega⟩)
    + a ⟨72 + k.val / 8, by omega⟩ * b ⟨k.val % 8, by omega⟩

/-- The combined signature of two rows, column by column: the level the column lies in, at the column's place in it. -/
def chenRow (a b : Fin 4680 → EReal) (j : Fin 4680) : EReal :=
  if h1 : j.val < 8 then lvl1 a b ⟨j.val, h1⟩
  else if h2 : j.val < 72 then lvl2 a b ⟨j.val - 8, by omega⟩
  else if h3 : j.val < 584 then lvl3 a b ⟨j.val - 72, by omega⟩
  else lvl4 a b ⟨j.val - 584, by omega⟩

theorem chenRow_lvl1 (a b : Fin 4680 → EReal) (k : Fin 8) (j : Fin 4680) (hj : j.val = k.val) :
    chenRow a b j = lvl1 a b k := by
  unfold chenRow
  rw [dif_pos (by omega)]
  exact congrArg (lvl1 a b) (Fin.ext hj)

theorem chenRow_lvl2 (a b : Fin 4680 → EReal) (k : Fin 64) (j : Fin 4680) (hj : j.val = 8 + k.val) :
    chenRow a b j = lvl2 a b k := by
  unfold chenRow
  rw [dif_neg (by omega), dif_pos (by omega)]
  exact congrArg (lvl2 a b) (Fin.ext (by show j.val - 8 = k.val; omega))

theorem chenRow_lvl3 (a b : Fin 4680 → EReal) (k : Fin 512) (j : Fin 4680) (hj : j.val = 72 + k.val) :
    chenRow a b j = lvl3 a b k := by
  unfold chenRow
  rw [dif_neg (by omega), dif_neg (by omega), dif_pos (by omega)]
  exact congrArg (lvl3 a b) (Fin.ext (by show j.val - 72 = k.val; omega))

theorem chenRow_lvl4 (a b : Fin 4680 → EReal) (k : Fin 4096) (j : Fin 4680) (hj : j.val = 584 + k.val) :
    chenRow a b j = lvl4 a b k := by
  unfold chenRow
  rw [dif_neg (by omega), dif_neg (by omega), dif_neg (by omega)]
  exact congrArg (lvl4 a b) (Fin.ext (by show j.val - 584 = k.val; omega))

/-- Row `r` of a matrix with 4680 columns. -/
def row {R : ℕ} (X : (⟨2, ![R, 4680]⟩ : Shape).Idx → EReal) (r : Fin R) : Fin 4680 → EReal :=
  fun j => X (ix2 r j)

/-- Chen's relation applied to every row of `X` and `Y`. -/
def chen {R : ℕ} (X Y : (⟨2, ![R, 4680]⟩ : Shape).Idx → EReal) : (⟨2, ![R, 4680]⟩ : Shape).Idx → EReal :=
  fun i => chenRow (row X (i 0)) (row Y (i 0)) (i 1)

theorem chen_apply {R : ℕ} (X Y : (⟨2, ![R, 4680]⟩ : Shape).Idx → EReal) (r : Fin R) (j : Fin 4680) :
    chen X Y (ix2 r j) = chenRow (row X r) (row Y r) j := rfl

/-- An entry of `chen X Y` depends only on its own row of `X` and of `Y`: two pairs of matrices that agree on a row
    (possibly at different row numbers) have the same combined signature there. -/
theorem chen_congr_row {R R' : ℕ} (X Y : (⟨2, ![R, 4680]⟩ : Shape).Idx → EReal)
    (X' Y' : (⟨2, ![R', 4680]⟩ : Shape).Idx → EReal) (r : Fin R) (r' : Fin R')
    (hX : ∀ j : Fin 4680, X (ix2 r j) = X' (ix2 r' j)) (hY : ∀ j : Fin 4680, Y (ix2 r j) = Y' (ix2 r' j))
    (j : Fin 4680) : chen X Y (ix2 r j) = chen X' Y' (ix2 r' j) := by
  rw [chen_apply, chen_apply]
  have eX : row X r = row X' r' := funext hX
  have eY : row Y r = row Y' r' := funext hY
  rw [eX, eY]

end Cert.Chen

end
-- ==== Proof.LibUnitRect.lean ====
/-
  Reading a matrix through a unit-stride rectangle.

  A unit-stride rectangle of an N0 × N1 matrix with first row o0, first column o1 and n0 × n1 entries places its own
  index (a, b) at the matrix index (o0 + a, o1 + b). This is what a load or a store through such a rectangle reads or
  writes, entry by entry: a body that handles a block in several rectangular pieces is read piece by piece with it.
  The target coordinates are taken as arbitrary indices with their values given by hypotheses, so that a caller can name
  them in whatever form its own statement uses (a literal offset, a grid coordinate's multiple, a computed offset known
  only through an equation) and never has to rewrite the rectangle itself, whose bounds proof depends on the offsets.
-/
import Idealize.ShloMosaic.Lib.ValueIdx

namespace Cert.LibUnitRect

open Idealize.ShloMosaic Idealize.ShloMosaic.ValueIdx

/-- A unit-stride rectangle of a matrix places its own index `x` at (first row + x 0, first column + x 1): for any
    matrix indices `a`, `b` with those values, `idx x = (a, b)`. -/
theorem unit_idx2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).idx x = ix2 a b := by
  funext d; apply Fin.ext
  match d with
  | ⟨0, _⟩ => show off 0 + 1 * (x 0).val = a.val; omega
  | ⟨1, _⟩ => show off 1 + 1 * (x 1).val = b.val; omega

/-- The same for the rectangle's embedding (a store's side of the same reading). -/
theorem unit_emb2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).emb x = ix2 a b :=
  unit_idx2 off size inb x a b ha hb

end Cert.LibUnitRect
-- ==== Proof.BlockChen.lean ====
/-
  What the kernel body leaves in its output block is Chen's relation of its two input blocks.

  The body writes the 256 × 4680 output block in four pieces, one per level: the column stretches that start at columns
  0, 8, 72 and 584. Each piece is computed from column stretches of the two input blocks read through rectangles with
  the same four offsets, so entry `(r, k)` of the piece of level `n` is `Chen.lvl n` of row `r` of the input blocks at
  `k` — which is `Chen.chen` of the two blocks at the entry's place `(r, offset + k)` in the output block. Four pieces,
  each the restriction of one function of the block index, that together cover the block: the block holds that function.
-/
import proofs.«115332_j82222853915370_2_alg».proof.Proof.Gen.KernelIdeal.Frame
import proofs.«115332_j82222853915370_2_alg».proof.Proof.Payloads
import proofs.«115332_j82222853915370_2_alg».proof.Proof.Chen
import proofs.«115332_j82222853915370_2_alg».proof.Proof.LibUnitRect
import Idealize.ShloMosaic.Lib.Pipeline.Value
import Idealize.ShloMosaic.Lib.Tactic

noncomputable section

namespace Cert.KernelIdeal.Block

open Idealize.ShloMosaic Idealize.ShloMosaic.TcCoe Idealize.ShloMosaic.ValueIdx Idealize.SL.Sem
open Cert.KernelIdeal Cert.KernelIdeal.Gen Cert.KernelIdeal.Pay Cert.Chen Cert.LibUnitRect

/-- The column stretch of level 1 of a 256-row block … -/
abbrev R1 : Rect S256x4680 := Rect.unit ![0, 0] S256x8.size inb_S256x4680_S256x8_0_0
/-- … of level 2 … -/
abbrev R2 : Rect S256x4680 := Rect.unit ![0, 8] S256x64.size inb_S256x4680_S256x64_0_8
/-- … of level 3 … -/
abbrev R3 : Rect S256x4680 := Rect.unit ![0, 72] S256x512.size inb_S256x4680_S256x512_0_72
/-- … and of level 4. -/
abbrev R4 : Rect S256x4680 := Rect.unit ![0, 584] S256x4096.size inb_S256x4680_S256x4096_0_584

/-- What a load through rectangle `R` reads of a block holding `X`. -/
abbrev ldI (X : Vec Ideal S256x4680 .f32) (R : Rect S256x4680) : R.shape.Idx → EReal :=
  View.ld (Val := Elt Ideal) (e' := EltTy.f32) X R

/-- A block read through the column stretch that starts at column `o`: entry `(r, k)` of what is read is the block's
    entry `(r, o + k)`. -/
theorem ld_cols (X : Vec Ideal S256x4680 .f32) (o n : ℕ)
    (inb : ∀ a, (![0, o] : Fin 2 → ℕ) a + (![256, n] : Fin 2 → ℕ) a ≤ S256x4680.size a)
    (r : Fin 256) (k : Fin n) (b : Fin 4680) (hb : b.val = o + k.val) :
    ldI X (Rect.unit (s := S256x4680) ![0, o] ![256, n] inb) (ix2 r k) = X (ix2 r b) :=
  congrArg X (unit_idx2 _ _ inb (ix2 r k) r b (by show r.val = 0 + r.val; omega) hb)

/-- The place in the block of entry `(r, k)` of the piece stored through that stretch. -/
theorem emb_cols (o n : ℕ)
    (inb : ∀ a, (![0, o] : Fin 2 → ℕ) a + (![256, n] : Fin 2 → ℕ) a ≤ S256x4680.size a)
    (r : Fin 256) (k : Fin n) (b : Fin 4680) (hb : b.val = o + k.val) :
    (Rect.unit (s := S256x4680) ![0, o] ![256, n] inb).emb (ix2 r k) = ix2 r b :=
  unit_emb2 _ _ inb (ix2 r k) r b (by show r.val = 0 + r.val; omega) hb

/-- The piece of level 1. -/
theorem piece1 (x0 x1 : Vec Ideal S256x4680 .f32) (x : R1.shape.Idx) :
    k0_pay2 (F := Ideal) (ldI x0 R1) (ldI x1 R1) x = chen x0 x1 (R1.emb x) := by
  obtain ⟨r, k, rfl⟩ : ∃ (r : Fin 256) (k : Fin 8), x = ix2 r k := ⟨x 0, x 1, eq_ix2 x⟩
  have hk := k.isLt
  rw [emb_cols 0 8 _ r k ⟨k.val, by omega⟩ (Nat.zero_add _).symm, chen_apply, chenRow_lvl1 _ _ k _ rfl, pay2_apply]
  unfold lvl1 row
  exact congrArg₂ (· + ·) (ld_cols x0 0 8 _ r k _ (Nat.zero_add _).symm) (ld_cols x1 0 8 _ r k _ (Nat.zero_add _).symm)

/-- The piece of level 2. -/
theorem piece2 (x0 x1 : Vec Ideal S256x4680 .f32) (x : R2.shape.Idx) :
    k0_pay3 (F := Ideal) (ldI x0 R2) (ldI x1 R2) (ldI x0 R1) (ldI x1 R1) x = chen x0 x1 (R2.emb x) := by
  obtain ⟨r, k, rfl⟩ : ∃ (r : Fin 256) (k : Fin 64), x = ix2 r k := ⟨x 0, x 1, eq_ix2 x⟩
  have hk := k.isLt
  rw [emb_cols 8 64 _ r k ⟨8 + k.val, by omega⟩ rfl, chen_apply, chenRow_lvl2 _ _ k _ rfl]
  refine (pay3_apply _ _ _ _ r k ⟨k.val / 8, by omega⟩ ⟨k.val % 8, by omega⟩ rfl rfl).trans ?_
  unfold lvl2 row
  exact congrArg₂ (· + ·) (congrArg₂ (· + ·) (ld_cols x0 8 64 _ r k _ rfl) (ld_cols x1 8 64 _ r k _ rfl))
    (congrArg₂ (· * ·) (ld_cols x0 0 8 _ r _ _ (Nat.zero_add _).symm) (ld_cols x1 0 8 _ r _ _ (Nat.zero_add _).symm))

/-- The piece of level 3. -/
theorem piece3 (x0 x1 : Vec Ideal S256x4680 .f32) (x : R3.shape.Idx) :
    k0_pay5 (F := Ideal) (k0_pay4 (ldI x0 R3) (ldI x1 R3) (ldI x0 R1) (ldI x1 R2)) (ldI x0 R2)
      (ldI x1 R1) x = chen x0 x1 (R3.emb x) := by
  obtain ⟨r, k, rfl⟩ : ∃ (r : Fin 256) (k : Fin 512), x = ix2 r k := ⟨x 0, x 1, eq_ix2 x⟩
  have hk := k.isLt
  rw [emb_cols 72 512 _ r k ⟨72 + k.val, by omega⟩ rfl, chen_apply, chenRow_lvl3 _ _ k _ rfl]
  refine (pay5_apply _ _ _ r k ⟨k.val / 8, by omega⟩ ⟨k.val % 8, by omega⟩ rfl rfl).trans ?_
  unfold lvl3 row
  refine congrArg₂ (· + ·) ?_ (congrArg₂ (· * ·) (ld_cols x0 8 64 _ r _ _ rfl) (ld_cols x1 0 8 _ r _ _ (Nat.zero_add _).symm))
  refine (pay4_apply _ _ _ _ r k ⟨k.val / 64, by omega⟩ ⟨k.val % 64, by omega⟩ rfl rfl).trans ?_
  exact congrArg₂ (· + ·) (congrArg₂ (· + ·) (ld_cols x0 72 512 _ r k _ rfl) (ld_cols x1 72 512 _ r k _ rfl))
    (congrArg₂ (· * ·) (ld_cols x0 0 8 _ r _ _ (Nat.zero_add _).symm) (ld_cols x1 8 64 _ r _ _ rfl))

/-- The piece of level 4. -/
theorem piece4 (x0 x1 : Vec Ideal S256x4680 .f32) (x : R4.shape.Idx) :
    k0_pay1 (F := Ideal) (k0_pay6 (ldI x0 R4) (ldI x1 R4) (ldI x0 R1) (ldI x1 R3) (ldI x0 R2) (ldI x1 R2))
      (ldI x0 R3) (ldI x1 R1) (k0_pay7 (ldI x0 R3) (ldI x1 R1)) (k0_pay8 (ldI x0 R3)) x
      = chen x0 x1 (R4.emb x) := by
  obtain ⟨r, k, rfl⟩ : ∃ (r : Fin 256) (k : Fin 4096), x = ix2 r k := ⟨x 0, x 1, eq_ix2 x⟩
  have hk := k.isLt
  rw [emb_cols 584 4096 _ r k ⟨584 + k.val, by omega⟩ rfl, chen_apply, chenRow_lvl4 _ _ k _ rfl]
  refine (pay1_apply _ _ _ r k ⟨k.val / 8, by omega⟩ ⟨k.val % 8, by omega⟩ rfl rfl).trans ?_
  unfold lvl4 row
  refine congrArg₂ (· + ·) ?_ (congrArg₂ (· * ·) (ld_cols x0 72 512 _ r _ _ rfl) (ld_cols x1 0 8 _ r _ _ (Nat.zero_add _).symm))
  refine (pay6_apply _ _ _ _ _ _ r k ⟨k.val / 512, by omega⟩ ⟨k.val % 512, by omega⟩ rfl rfl
    ⟨k.val / 64, by omega⟩ ⟨k.val % 64, by omega⟩ rfl rfl).trans ?_
  exact congrArg₂ (· + ·) (congrArg₂ (· + ·) (congrArg₂ (· + ·) (ld_cols x0 584 4096 _ r k _ rfl) (ld_cols x1 584 4096 _ r k _ rfl))
    (congrArg₂ (· * ·) (ld_cols x0 0 8 _ r _ _ (Nat.zero_add _).symm) (ld_cols x1 72 512 _ r _ _ rfl)))
    (congrArg₂ (· * ·) (ld_cols x0 8 64 _ r _ _ rfl) (ld_cols x1 8 64 _ r _ _ rfl))

/-- What the body leaves in the output block, whatever staging buffers it runs on: Chen's relation of the two input
    blocks. -/
theorem out_eq_chen (c : Dev nD) (i : grid0.Coords) (arg1 : Memref sig .tc .vmem S256x4680 .f32) (harg1 : arg1.IsWhole)
    (arg2 : Memref sig .tc .vmem S256x4680 .f32) (harg2 : arg2.IsWhole) (arg3 : Memref sig .tc .vmem S256x4680 .f32)
    (harg3 : arg3.IsWhole) (x0 x1 : Vec Ideal S256x4680 .f32) :
    out0_A_2 (F := Ideal) c i arg1 harg1 arg2 harg2 arg3 harg3 x0 x1 = chen x0 x1 := by
  unfold out0_A_2
  rw [View.read_writes_eq_canon _ _ _ (cover0_A_2 c i arg1 harg1 arg2 harg2 arg3 harg3 x0 x1)]
  funext y
  refine View.canon_apply_of_pieces (chen x0 x1) _ ?_ y (cover0_A_2 c i arg1 harg1 arg2 harg2 arg3 harg3 x0 x1 y)
  unfold kernelRun0_A
  dsimp only
  try sl_unfold_words
  simp only [View.readAt_eq_ld, harg1.read_unread, harg2.read_unread]
  intro p hp
  simp only [List.mem_cons, List.mem_singleton, List.not_mem_nil, or_false] at hp
  rcases hp with rfl | rfl | rfl | rfl
  · exact piece4 x0 x1
  · exact piece3 x0 x1
  · exact piece2 x0 x1
  · exact piece1 x0 x1

end Cert.KernelIdeal.Block

end
-- ==== Proof.KernelChen.lean ====
/-
  The kernel's result array is Chen's relation of its two argument arrays.

  The grid has 64 points. At point `t` each of the three windows holds rows `256 t … 256 t + 255` of its array, all 4680
  columns: block row `t`, block column 0. The body leaves Chen's relation of the two input blocks in the output block
  (`Block.out_eq_chen`), and an entry of Chen's relation depends only on its own row of the two matrices; row `r` of
  an input block at point `t` is row `256 t + r` of the argument. So what point `t` writes back is block `t` of Chen's
  relation of the whole arguments. Row `i` of the result lies in the block of point `i / 256`: the 64 blocks cover the
  result array, which therefore ends holding Chen's relation of the arguments.
-/
import proofs.«115332_j82222853915370_2_alg».proof.Proof.Gen.KernelIdeal.Value
import proofs.«115332_j82222853915370_2_alg».proof.Proof.BlockChen

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelIdeal.Block Cert.Chen

variable (m : (ℓ : Loc nD τ sig) → Buf (Elt Ideal) ℓ) (ρ : Dev nD → PrngReg)

/-- The three index maps over the grid: at point `t` every window is at block row `t`, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Chen's relation of a block against Chen's relation of the whole arrays: if row `y 0` of the blocks `a`, `b` is
    row `T * 256 + y 0` of the arrays `A`, `B`, then the block's entry at `y` is the arrays' entry at the index `i` that
    lies in that row at the same column. -/
theorem chen_block (A B : S16384x4680.Idx → EReal) (a b : S256x4680.Idx → EReal) (y : S256x4680.Idx)
    (i : S16384x4680.Idx) (T : ℕ)
    (ha : ∀ (y' : S256x4680.Idx) (i' : S16384x4680.Idx), (i' 0).val = T * 256 + (y' 0).val → (i' 1).val = (y' 1).val →
      a y' = A i')
    (hb : ∀ (y' : S256x4680.Idx) (i' : S16384x4680.Idx), (i' 0).val = T * 256 + (y' 0).val → (i' 1).val = (y' 1).val →
      b y' = B i')
    (hi0 : (i 0).val = T * 256 + (y 0).val) (hi1 : (i 1).val = (y 1).val) :
    chen a b y = chen A B i := by
  obtain ⟨r, j, rfl⟩ : ∃ (r : Fin 256) (j : Fin 4680), y = ix2 r j := ⟨y 0, y 1, eq_ix2 y⟩
  obtain ⟨R, J, rfl⟩ : ∃ (R : Fin 16384) (J : Fin 4680), i = ix2 R J := ⟨i 0, i 1, eq_ix2 i⟩
  obtain rfl : J = j := Fin.ext hi1
  exact chen_congr_row a b A B r R (fun j' => ha (ix2 r j') (ix2 R j') hi0 rfl) (fun j' => hb (ix2 r j') (ix2 R j') hi0 rfl) J

/-- Row `y 0` of the first input block at point `t` is row `256 t + y 0` of the first argument. -/
theorem iblk0_apply (c : Dev nD) (t : Fin cfg0.N) (y : S256x4680.Idx) (i : S16384x4680.Idx)
    (h0 : (i 0).val = t.val * 256 + (y 0).val) (h1 : (i 1).val = (y 1).val) :
    (iblk m c 0 t : Vec Ideal S256x4680 .f32) y = (V m c main_arg0 : S16384x4680.Idx → EReal) i := by
  obtain ⟨e0, e1, -, -, -, -⟩ := idx_facts t
  unfold iblk
  rw [View.read_apply]
  show V m c main_arg0 _ = V m c main_arg0 i
  congr 1
  funext a
  apply Fin.ext
  match a with
  | ⟨0, _⟩ => show win0_0.index t 0 * 256 + 1 * (y 0).val = (i 0).val; rw [e0, h0]; omega
  | ⟨1, _⟩ => show win0_0.index t 1 * 4680 + 1 * (y 1).val = (i 1).val; rw [e1, h1]; omega

/-- The same for the second input block and the second argument. -/
theorem iblk1_apply (c : Dev nD) (t : Fin cfg0.N) (y : S256x4680.Idx) (i : S16384x4680.Idx)
    (h0 : (i 0).val = t.val * 256 + (y 0).val) (h1 : (i 1).val = (y 1).val) :
    (iblk m c 1 t : Vec Ideal S256x4680 .f32) y = (V m c main_arg1 : S16384x4680.Idx → EReal) i := by
  obtain ⟨-, -, e2, e3, -, -⟩ := idx_facts t
  unfold iblk
  rw [View.read_apply]
  show V m c main_arg1 _ = V m c main_arg1 i
  congr 1
  funext a
  apply Fin.ext
  match a with
  | ⟨0, _⟩ => show win0_1.index t 0 * 256 + 1 * (y 0).val = (i 0).val; rw [e2, h0]; omega
  | ⟨1, _⟩ => show win0_1.index t 1 * 4680 + 1 * (y 1).val = (i 1).val; rw [e3, h1]; omega

/-- What point `t` writes back is block `t` of Chen's relation of the two arguments. -/
theorem flushed_eq (c : Dev nD) (t : Fin cfg0.N) :
    (dats m 0 c).flushed 2 t
      = ((cfg0.win 2).blk t).view.read (Elt Ideal) (chen (V m c main_arg0) (V m c main_arg1)) := by
  refine (flushed2_A m c t).trans ?_
  rw [out_eq_chen c (grid0.coords t) (ms0_0 t) (hs0_0 t) (ms0_1 t) (hs0_1 t) (ms0_2 t) (hs0_2 t) (iblk m c 0 t) (iblk m c 1 t)]
  obtain ⟨-, -, -, -, e4, e5⟩ := idx_facts t
  funext y
  rw [View.read_apply]
  show chen (iblk m c 0 t) (iblk m c 1 t) _ = chen (V m c main_arg0) (V m c main_arg1) (((cfg0.win 2).blk t).view.emb y)
  refine chen_block (V m c main_arg0) (V m c main_arg1) (iblk m c 0 t) (iblk m c 1 t) _ _ t.val
    (iblk0_apply m c t) (iblk1_apply m c t) ?_ ?_
  · show win0_2.index t 0 * 256 + 1 * (y 0).val = t.val * 256 + (y 0).val; rw [e4]; omega
  · show win0_2.index t 1 * 4680 + 1 * (y 1).val = (y 1).val; rw [e5]; omega

/-- An index of the result array is in point `t`'s block iff each coordinate is in the block's range on its axis. -/
theorem mem_blk (t : Fin cfg0.N) (i : S16384x4680.Idx) :
    i ∈ ((cfg0.win 2).blk t).view.set ↔ ∀ a : Fin 2, win0_2.index t a * S256x4680.size a ≤ (i a).val
      ∧ (i a).val < win0_2.index t a * S256x4680.size a + S256x4680.size a := by
  show i ∈ ((View.whole main_v0).slice (win0_2.rect t)).set ↔ _
  rw [View.set_slice_whole, Rect.mem_set_unit]
  exact Iff.rfl

/-- Every index of the result array is in the block of the point its row number over 256 names. -/
theorem cover (i : S16384x4680.Idx) :
    ∃ t : Fin cfg0.N, (cfg0.win 2).flush t = true ∧ i ∈ ((cfg0.win 2).blk t).view.set := by
  have hi0 : (i 0).val < 16384 := (i 0).isLt
  have hi1 : (i 1).val < 4680 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t 0 * 256 ≤ (i 0).val ∧ (i 0).val < win0_2.index t 0 * 256 + 256
    rw [e4, ht]; omega
  | ⟨1, _⟩ =>
    show win0_2.index t 1 * 4680 ≤ (i 1).val ∧ (i 1).val < win0_2.index t 1 * 4680 + 4680
    rw [e5]; omega

/-- So the result array ends holding Chen's relation of the two arguments as launched. -/
theorem final (c : Dev nD) :
    (dats m 0 c).arrAt 2 cfg0.N = chen (m ((c : Thread nD τ).loc main_arg0)) (m ((c : Thread nD τ).loc main_arg1)) :=
  (dats m 0 c).arrAt_eq_of_cover 2 (chen (V m c main_arg0) (V m c main_arg1)) (fun t _ => flushed_eq m c t) cover

/-- The kernel's run, read: every weakly fair execution terminates with the result array at Chen's relation of the
    arguments and the arguments unchanged. -/
theorem run : θ_run defs (onTc (τ := τ) (main (F := Ideal))) ⟨m, fun _ => 0, ρ⟩ fun r => ∀ c : Dev nD,
      r.2.mem ((c : Thread nD τ).loc main_v0)
        = chen (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.LibConcatCols.lean ====
/-
  Matrices with the same number of rows laid side by side, read at an index.

  For `x₁ : [n, a]` and `x₂ : [n, b]` joined along the columns into `[n, c]` (`c = a + b`):

  * `concat_cols_left`: at `(r, k)` with `k < a` the joined array is `x₁ (r, k)`;
  * `concat_cols_right`: at `(r, a + k)` with `k < b` it is `x₂ (r, k)`.

  The same for four and for five matrices side by side (`concat4_cols_p`, `concat5_cols_p`): piece `p` starts at the
  sum of the extents before it.
-/
import Idealize.ShloMosaic.Lib.ValueIdx
import Idealize.ShloMosaic.Lib.Pipeline.Value

noncomputable section

namespace Cert.Proof.ConcatCols

open Idealize.ShloMosaic Idealize.ShloMosaic.ValueIdx

variable {α : Type}

/-- A column of the left piece. -/
theorem concat_cols_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (k : Fin a) (hk : k.val < c) :
    concatenate ⟨2, ![n, c]⟩ (1 : Fin 2) [⟨⟨2, ![n, a]⟩, x₁⟩, ⟨⟨2, ![n, b]⟩, x₂⟩] h (ix2 r ⟨k.val, hk⟩) = x₁ (ix2 r k) :=
  concatenate_pair_apply_left (1 : Fin 2) x₁ x₂ h (ix2 r ⟨k.val, hk⟩) rfl (ix2 r k) (fun bx => by
    match bx with
    | ⟨0, _⟩ => rfl
    | ⟨1, _⟩ => rfl)

/-- A column of the right piece. -/
theorem concat_cols_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (k : Fin b) (hk : a + k.val < c) :
    concatenate ⟨2, ![n, c]⟩ (1 : Fin 2) [⟨⟨2, ![n, a]⟩, x₁⟩, ⟨⟨2, ![n, b]⟩, x₂⟩] h (ix2 r ⟨a + k.val, hk⟩) = x₂ (ix2 r k) :=
  concatenate_pair_apply_right (1 : Fin 2) x₁ x₂ h (ix2 r ⟨a + k.val, hk⟩) rfl rfl (ix2 r k) (fun bx hb => by
    match bx with
    | ⟨0, _⟩ => rfl
    | ⟨1, _⟩ => exact absurd rfl hb)
    (by show k.val + a = a + k.val; omega)

/-! ## Four and five pieces -/

/-- Piece 0 of 4 laid side by side: at `(r, k)` the joined array is piece 0 at `(r, k)`. -/
theorem concat4_cols_0 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a0) (hk : k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨k.val, hk⟩) = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨k.val, hk⟩) 0 (by simp) ⟨2, ![n, a0]⟩ x0 rfl rfl (0)
    (by simp <;> omega) (ix2 r k) (fun bx hb => by
      match bx with
      | ⟨0, _⟩ => rfl
      | ⟨1, _⟩ => exact absurd rfl hb) (Nat.zero_add _)

/-- Piece 1 of 4 laid side by side: at `(r, a0 + k)` the joined array is piece 1 at `(r, k)`. -/
theorem concat4_cols_1 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a1) (hk : a0 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + k.val, hk⟩) = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + k.val, hk⟩) 1 (by simp) ⟨2, ![n, a1]⟩ x1 rfl rfl (a0)
    (by simp <;> omega) (ix2 r k) (fun bx hb => by
      match bx with
      | ⟨0, _⟩ => rfl
      | ⟨1, _⟩ => exact absurd rfl hb) rfl

/-- Piece 2 of 4 laid side by side: at `(r, a0 + a1 + k)` the joined array is piece 2 at `(r, k)`. -/
theorem concat4_cols_2 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a2) (hk : a0 + a1 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + k.val, hk⟩) = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + k.val, hk⟩) 2 (by simp) ⟨2, ![n, a2]⟩ x2 rfl rfl (a0 + a1)
    (by simp <;> omega) (ix2 r k) (fun bx hb => by
      match bx with
      | ⟨0, _⟩ => rfl
      | ⟨1, _⟩ => exact absurd rfl hb) rfl

/-- Piece 3 of 4 laid side by side: at `(r, a0 + a1 + a2 + k)` the joined array is piece 3 at `(r, k)`. -/
theorem concat4_cols_3 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a3) (hk : a0 + a1 + a2 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + a2 + k.val, hk⟩) = x3 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + a2 + k.val, hk⟩) 3 (by simp) ⟨2, ![n, a3]⟩ x3 rfl rfl (a0 + a1 + a2)
    (by simp <;> omega) (ix2 r k) (fun bx hb => by
      match bx with
      | ⟨0, _⟩ => rfl
      | ⟨1, _⟩ => exact absurd rfl hb) rfl

/-- Piece 0 of 5 laid side by side: at `(r, k)` the joined array is piece 0 at `(r, k)`. -/
theorem concat5_cols_0 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a0) (hk : k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨k.val, hk⟩) = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨k.val, hk⟩) 0 (by simp) ⟨2, ![n, a0]⟩ x0 rfl rfl (0)
    (by simp <;> omega) (ix2 r k) (fun bx hb => by
      match bx with
      | ⟨0, _⟩ => rfl
      | ⟨1, _⟩ => exact absurd rfl hb) (Nat.zero_add _)

/-- Piece 1 of 5 laid side by side: at `(r, a0 + k)` the joined array is piece 1 at `(r, k)`. -/
theorem concat5_cols_1 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a1) (hk : a0 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + k.val, hk⟩) = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + k.val, hk⟩) 1 (by simp) ⟨2, ![n, a1]⟩ x1 rfl rfl (a0)
    (by simp <;> omega) (ix2 r k) (fun bx hb => by
      match bx with
      | ⟨0, _⟩ => rfl
      | ⟨1, _⟩ => exact absurd rfl hb) rfl

/-- Piece 2 of 5 laid side by side: at `(r, a0 + a1 + k)` the joined array is piece 2 at `(r, k)`. -/
theorem concat5_cols_2 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a2) (hk : a0 + a1 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + k.val, hk⟩) = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + k.val, hk⟩) 2 (by simp) ⟨2, ![n, a2]⟩ x2 rfl rfl (a0 + a1)
    (by simp <;> omega) (ix2 r k) (fun bx hb => by
      match bx with
      | ⟨0, _⟩ => rfl
      | ⟨1, _⟩ => exact absurd rfl hb) rfl

/-- Piece 3 of 5 laid side by side: at `(r, a0 + a1 + a2 + k)` the joined array is piece 3 at `(r, k)`. -/
theorem concat5_cols_3 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a3) (hk : a0 + a1 + a2 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + k.val, hk⟩) = x3 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + k.val, hk⟩) 3 (by simp) ⟨2, ![n, a3]⟩ x3 rfl rfl (a0 + a1 + a2)
    (by simp <;> omega) (ix2 r k) (fun bx hb => by
      match bx with
      | ⟨0, _⟩ => rfl
      | ⟨1, _⟩ => exact absurd rfl hb) rfl

/-- Piece 4 of 5 laid side by side: at `(r, a0 + a1 + a2 + a3 + k)` the joined array is piece 4 at `(r, k)`. -/
theorem concat5_cols_4 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a4) (hk : a0 + a1 + a2 + a3 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + a3 + k.val, hk⟩) = x4 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + a3 + k.val, hk⟩) 4 (by simp) ⟨2, ![n, a4]⟩ x4 rfl rfl (a0 + a1 + a2 + a3)
    (by simp <;> omega) (ix2 r k) (fun bx hb => by
      match bx with
      | ⟨0, _⟩ => rfl
      | ⟨1, _⟩ => exact absurd rfl hb) rfl

end Cert.Proof.ConcatCols

end
-- ==== Proof.RefChen.lean ====
/-
  The reference computes Chen's relation row by row.

  The reference cuts each argument into its four levels (column stretches from columns 0, 8, 72 and 584), forms each
  cross term `a_i ⊗ b_j` as `(a_i[:, :, None] * b_j[:, None, :])` reshaped flat — entry `e` of a row is
  `a_i (e / n) * b_j (e % n)` for `b_j` of width `n` —, adds the terms of each level left to right and lays the four
  levels side by side. Read at one index, level by level, this is `Chen.lvl1` … `Chen.lvl4` of the index's row of the
  two arguments, and the whole result is `Chen.chen` of the two arguments.
-/
import proofs.«115332_j82222853915370_2_alg».proof.Proof.Gen.ReferenceIdeal.Read
import proofs.«115332_j82222853915370_2_alg».proof.Proof.Chen
import proofs.«115332_j82222853915370_2_alg».proof.Proof.LibConcatCols

noncomputable section

namespace Cert.ReferenceIdeal.RefValue

open Idealize.ShloMosaic Idealize.ShloMosaic.ValueIdx Cert.ReferenceIdeal Cert.ReferenceIdeal.Gen Cert.ReferenceIdeal.Read
open Cert.Chen Cert.Proof.ConcatCols

/-- Two indices of a matrix with equal coordinates are equal: coordinate by coordinate, by computation or arithmetic. -/
macro "idx_eq" : tactic =>
  `(tactic| (funext a; apply Fin.ext; match a with
    | ⟨0, _⟩ => first | rfl | (dsimp only [idx_main_v0, idx_main_v1, idx_main_v2, idx_main_v3, idx_main_v4, idx_main_v5, idx_main_v6, idx_main_v7, idx_main_v10, idx_main_v11, idx_main_v12, idx_main_v13, idx_main_v15, idx_main_v18, idx_main_v19, idx_main_v20, idx_main_v21, idx_main_v23, idx_main_v25, idx_main_v26, idx_main_v27, idx_main_v28, idx_main_v30, idx_main_v33, idx_main_v34, idx_main_v35, idx_main_v36, idx_main_v38, idx_main_v40, idx_main_v41, idx_main_v42, idx_main_v43, idx_main_v45, idx_main_v47, idx_main_v48, idx_main_v49, idx_main_v50, idx_main_v52, ix2] <;> omega)
    | ⟨1, _⟩ => first | rfl | (dsimp only [idx_main_v0, idx_main_v1, idx_main_v2, idx_main_v3, idx_main_v4, idx_main_v5, idx_main_v6, idx_main_v7, idx_main_v10, idx_main_v11, idx_main_v12, idx_main_v13, idx_main_v15, idx_main_v18, idx_main_v19, idx_main_v20, idx_main_v21, idx_main_v23, idx_main_v25, idx_main_v26, idx_main_v27, idx_main_v28, idx_main_v30, idx_main_v33, idx_main_v34, idx_main_v35, idx_main_v36, idx_main_v38, idx_main_v40, idx_main_v41, idx_main_v42, idx_main_v43, idx_main_v45, idx_main_v47, idx_main_v48, idx_main_v49, idx_main_v50, idx_main_v52, ix2] <;> omega)))

/-- Level 1 of the reference's result at `(r, k)`. -/
theorem ref_lvl1 (x0 x1 : S16384x4680.Idx → EReal) (r : Fin 16384) (k : Fin 8) :
    val_main_v8 (F := Ideal) x0 x1 (ix2 r k) = lvl1 (row x0 r) (row x1 r) k := by
  have hr := r.isLt
  have hk := k.isLt
  rw [val_main_v8_apply, val_main_v0_apply, val_main_v4_apply]
  unfold lvl1 row
  refine congrArg₂ (· + ·) (congrArg x0 ?_) (congrArg x1 ?_) <;> idx_eq

/-- Level 2 of the reference's result at `(r, k)`. -/
theorem ref_lvl2 (x0 x1 : S16384x4680.Idx → EReal) (r : Fin 16384) (k : Fin 64) :
    val_main_v16 (F := Ideal) x0 x1 (ix2 r k) = lvl2 (row x0 r) (row x1 r) k := by
  have hr := r.isLt
  have hk := k.isLt
  rw [val_main_v16_apply, val_main_v9_apply, val_main_v1_apply, val_main_v5_apply, val_main_v15_apply, val_main_v14_apply,
    val_main_v12_apply, val_main_v10_apply, val_main_v0_apply, val_main_v13_apply, val_main_v11_apply, val_main_v4_apply]
  unfold lvl2 row
  refine congrArg₂ (· + ·) (congrArg₂ (· + ·) (congrArg x0 ?_) (congrArg x1 ?_))
    (congrArg₂ (· * ·) (congrArg x0 ?_) (congrArg x1 ?_)) <;> idx_eq

/-- Level 3 of the reference's result at `(r, k)`. -/
theorem ref_lvl3 (x0 x1 : S16384x4680.Idx → EReal) (r : Fin 16384) (k : Fin 512) :
    val_main_v31 (F := Ideal) x0 x1 (ix2 r k) = lvl3 (row x0 r) (row x1 r) k := by
  have hr := r.isLt
  have hk := k.isLt
  rw [val_main_v31_apply, val_main_v24_apply, val_main_v17_apply, val_main_v2_apply, val_main_v6_apply,
    val_main_v23_apply, val_main_v22_apply, val_main_v20_apply, val_main_v18_apply, val_main_v0_apply,
    val_main_v21_apply, val_main_v19_apply, val_main_v5_apply,
    val_main_v30_apply, val_main_v29_apply, val_main_v27_apply, val_main_v25_apply, val_main_v1_apply,
    val_main_v28_apply, val_main_v26_apply, val_main_v4_apply]
  unfold lvl3 row
  refine congrArg₂ (· + ·) (congrArg₂ (· + ·) (congrArg₂ (· + ·) (congrArg x0 ?_) (congrArg x1 ?_))
    (congrArg₂ (· * ·) (congrArg x0 ?_) (congrArg x1 ?_))) (congrArg₂ (· * ·) (congrArg x0 ?_) (congrArg x1 ?_)) <;> idx_eq

/-- Level 4 of the reference's result at `(r, k)`. -/
theorem ref_lvl4 (x0 x1 : S16384x4680.Idx → EReal) (r : Fin 16384) (k : Fin 4096) :
    val_main_v53 (F := Ideal) x0 x1 (ix2 r k) = lvl4 (row x0 r) (row x1 r) k := by
  have hr := r.isLt
  have hk := k.isLt
  rw [val_main_v53_apply, val_main_v46_apply, val_main_v39_apply, val_main_v32_apply, val_main_v3_apply, val_main_v7_apply,
    val_main_v38_apply, val_main_v37_apply, val_main_v35_apply, val_main_v33_apply, val_main_v0_apply,
    val_main_v36_apply, val_main_v34_apply, val_main_v6_apply,
    val_main_v45_apply, val_main_v44_apply, val_main_v42_apply, val_main_v40_apply, val_main_v1_apply,
    val_main_v43_apply, val_main_v41_apply, val_main_v5_apply,
    val_main_v52_apply, val_main_v51_apply, val_main_v49_apply, val_main_v47_apply, val_main_v2_apply,
    val_main_v50_apply, val_main_v48_apply, val_main_v4_apply]
  unfold lvl4 row
  refine congrArg₂ (· + ·) (congrArg₂ (· + ·) (congrArg₂ (· + ·) (congrArg₂ (· + ·) (congrArg x0 ?_) (congrArg x1 ?_))
    (congrArg₂ (· * ·) (congrArg x0 ?_) (congrArg x1 ?_))) (congrArg₂ (· * ·) (congrArg x0 ?_) (congrArg x1 ?_)))
    (congrArg₂ (· * ·) (congrArg x0 ?_) (congrArg x1 ?_)) <;> idx_eq

/-- A column of each level is a column of the row. -/
theorem col1_lt (k : Fin 8) : k.val < 4680 := by omega
theorem col2_lt (k : Fin 64) : 8 + k.val < 4680 := by omega
theorem col3_lt (k : Fin 512) : 8 + 64 + k.val < 4680 := by omega
theorem col4_lt (k : Fin 4096) : 8 + 64 + 512 + k.val < 4680 := by omega

/-- The reference's result is Chen's relation applied to every row of its two arguments. -/
theorem ref_eq_chen (x0 x1 : S16384x4680.Idx → EReal) : val_main_v54 (F := Ideal) x0 x1 = chen x0 x1 := by
  funext i
  obtain ⟨r, j, rfl⟩ : ∃ (r : Fin 16384) (j : Fin 4680), i = ix2 r j := ⟨i 0, i 1, eq_ix2 i⟩
  have hj := j.isLt
  rw [chen_apply]
  unfold val_main_v54
  by_cases h1 : j.val < 8
  · obtain ⟨k, rfl⟩ : ∃ k : Fin 8, j = ⟨k.val, col1_lt k⟩ := ⟨⟨j.val, h1⟩, rfl⟩
    refine (concat4_cols_0 _ _ _ _ concatenates_S16384x8_S16384x64_S16384x512_S16384x4096_S16384x4680_d1 r k _).trans ?_
    exact (ref_lvl1 x0 x1 r k).trans (chenRow_lvl1 _ _ k _ rfl).symm
  by_cases h2 : j.val < 72
  · obtain ⟨k, rfl⟩ : ∃ k : Fin 64, j = ⟨8 + k.val, col2_lt k⟩ :=
      ⟨⟨j.val - 8, by omega⟩, Fin.ext (by show j.val = 8 + (j.val - 8); omega)⟩
    refine (concat4_cols_1 _ _ _ _ concatenates_S16384x8_S16384x64_S16384x512_S16384x4096_S16384x4680_d1 r k _).trans ?_
    exact (ref_lvl2 x0 x1 r k).trans (chenRow_lvl2 _ _ k _ rfl).symm
  by_cases h3 : j.val < 584
  · obtain ⟨k, rfl⟩ : ∃ k : Fin 512, j = ⟨8 + 64 + k.val, col3_lt k⟩ :=
      ⟨⟨j.val - 72, by omega⟩, Fin.ext (by show j.val = 8 + 64 + (j.val - 72); omega)⟩
    refine (concat4_cols_2 _ _ _ _ concatenates_S16384x8_S16384x64_S16384x512_S16384x4096_S16384x4680_d1 r k _).trans ?_
    exact (ref_lvl3 x0 x1 r k).trans (chenRow_lvl3 _ _ k _ (by show 8 + 64 + k.val = 72 + k.val; omega)).symm
  · obtain ⟨k, rfl⟩ : ∃ k : Fin 4096, j = ⟨8 + 64 + 512 + k.val, col4_lt k⟩ :=
      ⟨⟨j.val - 584, by omega⟩, Fin.ext (by show j.val = 8 + 64 + 512 + (j.val - 584); omega)⟩
    refine (concat4_cols_3 _ _ _ _ concatenates_S16384x8_S16384x64_S16384x512_S16384x4096_S16384x4680_d1 r k _).trans ?_
    exact (ref_lvl4 x0 x1 r k).trans (chenRow_lvl4 _ _ k _ (by show 8 + 64 + 512 + k.val = 584 + k.val; omega)).symm

end Cert.ReferenceIdeal.RefValue

end
-- ==== Proof.lean ====
/-
  The kernel and the reference both compute Chen's relation for the concatenation of two paths, row by row, on
  signatures truncated at depth 4 over 8 channels (rows of 8 + 64 + 512 + 4096 = 4680 numbers): level `k` of the result is
  `a_k + b_k + Σ_{i=1}^{k-1} a_i ⊗ b_{k-i}`, the sums taken left to right and each `a_i ⊗ b_j` flattened in row-major
  order (`Proof/Chen.lean`).

  The reference does this on whole 16384-row arrays (`Proof/RefChen.lean`). The kernel does it on blocks of 256 rows, one
  per grid point, writing each level's column stretch of the block separately and computing the widest cross term of
  level 4 in eight chunks laid side by side (`Proof/Payloads.lean`, `Proof/BlockChen.lean`); since an entry depends only
  on its own row of the two arguments, the 64 blocks together are Chen's relation of the whole arrays
  (`Proof/KernelChen.lean`). Both sides perform the same additions and multiplications in the same order, so they agree
  on all extended reals and the precondition is not used. The idealization rewrote nothing, so `preserves` is `True`.
-/
import proofs.«115332_j82222853915370_2_alg».proof.Defs
import proofs.«115332_j82222853915370_2_alg».proof.Proof.Gen.Kernel
import proofs.«115332_j82222853915370_2_alg».proof.Proof.Gen.Kernel.Frame
import proofs.«115332_j82222853915370_2_alg».proof.Proof.Gen.KernelIdeal
import proofs.«115332_j82222853915370_2_alg».proof.Proof.Gen.KernelIdeal.Frame
import proofs.«115332_j82222853915370_2_alg».proof.Proof.Gen.KernelIdeal.Value
import proofs.«115332_j82222853915370_2_alg».proof.Proof.Gen.ReferenceIdeal
import proofs.«115332_j82222853915370_2_alg».proof.Proof.Gen.ReferenceIdeal.Run
import proofs.«115332_j82222853915370_2_alg».proof.Proof.Gen.ReferenceIdeal.Read
import proofs.«115332_j82222853915370_2_alg».proof.Proof.Gen.Pre_finite_inputs
import proofs.«115332_j82222853915370_2_alg».proof.Proof.KernelChen
import proofs.«115332_j82222853915370_2_alg».proof.Proof.RefChen
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, the kernel's result array and the reference's both end at Chen's
    relation of the arguments. -/
theorem algebraic : Cert.algebraic_KernelIdeal_ReferenceIdeal := by
  intro m ρ m' ρ' _ hagree
  refine ⟨fun c => Cert.Chen.chen (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RefValue.ref_eq_chen, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
